-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S800000 : Shape := ⟨1, ![800000]⟩
abbrev S_ : Shape := ⟨0, ![]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  reducesTo_S_S_d : S_.ReducesTo [] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v47 : IVec S_ 1) (main_v50 : IVec S1 1) : IVec S_ 1 :=
  let main_c_19 : IVec S_ 1 := constantI S_ 1 1#1
  let main_v51 : IVec S_ 1 := (fun x v => Host.reduce IntOp.andi x v reducesTo_S1_S_d0 h_S_) main_v50 main_c_19
  let main_v52 : IVec S_ 1 := andi main_v47 main_v51
  main_v52

def fn_part2 {F : FTy → Type} [FloatOps F] (main_arg10 : FVec F S128 .f32) (main_arg11 : FVec F S128x1 .f32) (main_arg12 : FVec F S1 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg10
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128x1 .f32 := Host.absf main_arg11
  let main_cst_16 : FVec F S_ .f32 := constant S_ .f32 0x7F800000#32
  let main_v44 : FVec F S128x1 .f32 := broadcastInDim S128x1 ![] bcast_S_S128x1 main_cst_16
  let main_v45 : IVec S128x1 1 := cmpf .olt main_v43 main_v44
  let main_c_17 : IVec S_ 1 := constantI S_ 1 1#1
  let main_v46 : IVec S_ 1 := (fun x v => Host.reduce IntOp.andi x v reducesTo_S128x1_S_d0_1 h_S_) main_v45 main_c_17
  let main_v47 : IVec S_ 1 := andi main_v42 main_v46
  let main_v48 : FVec F S1 .f32 := Host.absf main_arg12
  let main_cst_18 : FVec F S_ .f32 := constant S_ .f32 0x7F800000#32
  let main_v49 : FVec F S1 .f32 := broadcastInDim S1 ![] bcast_S_S1 main_cst_18
  let main_v50 : IVec S1 1 := cmpf .olt main_v48 main_v49
  fn_part3 (F := F) main_v47 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_v12 : IVec S_ 1) (main_v15 : IVec S1x128 1) (main_c_5 : IVec S_ 1) : IVec S_ 1 :=
  let main_v16 : IVec S_ 1 := (fun x v => Host.reduce IntOp.andi x v reducesTo_S1x128_S_d0_1 h_S_) main_v15 main_c_5
  let main_v17 : IVec S_ 1 := andi main_v12 main_v16
  let main_v18 : FVec F S128 .f32 := Host.absf main_arg6
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128x128 .f32 := Host.absf main_arg7
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg8
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128x128 .f32 := Host.absf main_arg9
  fn_part2 (F := F) main_arg10 main_arg11 main_arg12 main_v32 main_v33

def fn {F : FTy → Type} [FloatOps F] (main_arg0 : FVec F S100000x2 .f32) (main_arg1 : FVec F S100000x2 .f32) (main_arg2 : IVec S800000 32) (main_arg3 : IVec S800000 32) (main_arg4 : FVec F S_ .f32) (main_arg5 : FVec F S1x128 .f32) (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S_ .f32 := Host.absf main_arg4
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S1x128 .f32 := Host.absf main_arg5
  let main_cst_4 : FVec F S_ .f32 := constant S_ .f32 0x7F800000#32
  let main_v14 : FVec F S1x128 .f32 := broadcastInDim S1x128 ![] bcast_S_S1x128 main_cst_4
  let main_v15 : IVec S1x128 1 := cmpf .olt main_v13 main_v14
  let main_c_5 : IVec S_ 1 := constantI S_ 1 1#1
  fn_part1 (F := F) main_arg6 main_arg7 main_arg8 main_arg9 main_arg10 main_arg11 main_arg12 main_v12 main_v15 main_c_5
-- ==== Kernel.lean ====
abbrev S100000x2 : Shape := ⟨2, ![100000, 2]⟩
abbrev S800000 : Shape := ⟨1, ![800000]⟩
abbrev S_ : Shape := ⟨0, ![]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x100000 : Shape := ⟨2, ![2, 100000]⟩
abbrev S800000x1 : Shape := ⟨2, ![800000, 1]⟩
abbrev S2x800000 : Shape := ⟨2, ![2, 800000]⟩
abbrev S1x1 : Shape := ⟨2, ![1, 1]⟩
abbrev S2x32000 : Shape := ⟨2, ![2, 32000]⟩
abbrev S32000 : Shape := ⟨1, ![32000]⟩
abbrev S1x32000 : Shape := ⟨2, ![1, 32000]⟩
abbrev S128x32000 : Shape := ⟨2, ![128, 32000]⟩
abbrev S800000x2 : Shape := ⟨2, ![800000, 2]⟩

abbrev nBuf : Space → Nat
  | .hbm => 49
  | .vmem => 12
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S800000, .i32⟩
  | .hbm, ⟨3, _⟩ => ⟨S800000, .i32⟩
  | .hbm, ⟨4, _⟩ => ⟨S_, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S2x100000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S2x800000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S2x800000, .f32⟩
  | .hbm, ⟨32, _⟩ => ⟨S2x800000, .f32⟩
  | .hbm, ⟨33, _⟩ => ⟨S128x1, .f32⟩
  | .hbm, ⟨34, _⟩ => ⟨S128x1, .f32⟩
  | .hbm, ⟨35, _⟩ => ⟨S128x128, .f32⟩
  | .hbm, ⟨36, _⟩ => ⟨S128x1, .f32⟩
  | .hbm, ⟨37, _⟩ => ⟨S128x128, .f32⟩
  | .hbm, ⟨38, _⟩ => ⟨S128x1, .f32⟩
  | .hbm, ⟨39, _⟩ => ⟨S1x1, .f32⟩
  | .hbm, ⟨40, _⟩ => ⟨S2x800000, .f32⟩
  | .hbm, ⟨41, _⟩ => ⟨S800000x2, .f32⟩
  | .hbm, ⟨42, _⟩ => ⟨S_, .f32⟩
  | .hbm, ⟨43, _⟩ => ⟨S100000x2, .f32⟩
  | .hbm, ⟨44, _⟩ => ⟨S800000x1, .i32⟩
  | .hbm, ⟨45, _⟩ => ⟨S100000x2, .f32⟩
  | .hbm, ⟨46, _⟩ => ⟨S100000x2, .f32⟩
  | .hbm, ⟨47, _⟩ => ⟨S100000x2, .f32⟩
  | .hbm, ⟨48, _⟩ => ⟨S100000x2, .f32⟩
  | .local _ .vmem, ⟨0, _⟩ => ⟨S2x32000, .f32⟩
  | .local _ .vmem, ⟨1, _⟩ => ⟨S2x32000, .f32⟩
  | .local _ .vmem, ⟨2, _⟩ => ⟨S128x1, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S128x128, .f32⟩
  | .local _ .vmem, ⟨7, _⟩ => ⟨S128x1, .f32⟩
  | .local _ .vmem, ⟨8, _⟩ => ⟨S128x1, .f32⟩
  | .local _ .vmem, ⟨9, _⟩ => ⟨S1x1, .f32⟩
  | .local _ .vmem, ⟨10, _⟩ => ⟨S2x32000, .f32⟩
  | .local _ .vmem, ⟨11, _⟩ => ⟨S2x32000, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x32000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S100000x2_S2x100000_1_0 : S100000x2.Transposes [1, 0] S2x100000
  bcast_S_S800000 : S_.BroadcastsInDim S800000 (![] : Fin 0 → Fin S800000.rank)
  bcast_S800000_S800000x1_0 : S800000.BroadcastsInDim S800000x1 (![0] : Fin 1 → Fin S800000x1.rank)
  transposes_S1x128_S128x1_1_0 : S1x128.Transposes [1, 0] S128x1
  shapeCasts_S128_S128x1 : S128.ShapeCasts S128x1
  transposes_S128x128_S128x128_1_0 : S128x128.Transposes [1, 0] S128x128
  shapeCasts_S1_S1x1 : S1.ShapeCasts S1x1
  inb_S2x32000_S2x32000_0_0 : ∀ a, (![0, 0] : Fin 2 → Nat) a + S2x32000.size a ≤ S2x32000.size a
  h_S2x32000 : 0 < S2x32000.numel
  shapeCasts_S2x32000_S2x32000 : S2x32000.ShapeCasts S2x32000
  reduces_S2x32000_S32000 : S2x32000.Reduces [0] S32000
  shapeCasts_S32000_S1x32000 : S32000.ShapeCasts S1x32000
  broadcasts_S1x32000_S2x32000 : S1x32000.Broadcasts S2x32000
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x32000 : S128x1.Broadcasts S128x32000
  broadcasts_S1x32000_S128x32000 : S1x32000.Broadcasts S128x32000
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x32000_S32000 : S128x32000.Reduces [0] S32000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x32000 : S1x1.Broadcasts S1x32000
  transposes_S2x800000_S800000x2_1_0 : S2x800000.Transposes [1, 0] S800000x2
  bcast_S_S100000x2 : S_.BroadcastsInDim S100000x2 (![] : Fin 0 → Fin S100000x2.rank)
  gather_S2x100000_S800000x1_S2x800000_0_1_n_n_1_1_21_wf : GatherDims.WF S2x100000 S800000x1 S2x800000 [0] [1] [] [1] [] 1 ![2, 1]
  dot_S128x128_S128x32000_S128x32000_1_0_0_1_n_n_wf : DotDims.WF S128x128 S128x32000 S128x32000 [1] [0] [0] [1] [] []
  scatter_S100000x2_S800000x1_S800000x2_1_0_0_1_wf : ScatterDims.WF S100000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32000.size a ≤ S2x800000.size a
  hwx0_0 : ∀ i : grid0.Coords, EltTy.bits .f32 = 32 ∨ (Rect.block (s := S2x800000) S2x32000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x32000.size a ≤ S2x800000.size a
  hwx0_9 : ∀ i : grid0.Coords, EltTy.bits .f32 = 32 ∨ (Rect.block (s := S2x800000) S2x32000.size (cc0_transform_9 i) (hinb0_9 i)).WholeWords (EltTy.packing .f32)

variable [Facts₀]

def gather_S2x100000_S800000x1_S2x800000_0_1_n_n_1_1_21 : GatherDims S2x100000 S800000x1 S2x800000 where
  offsetDims := [0]
  collapsedSliceDims := [1]
  operandBatchingDims := []
  startIndicesBatchingDims := []
  startIndexMap := [1]
  indexVectorDim := 1
  sliceSizes := ![2, 1]
  wf := gather_S2x100000_S800000x1_S2x800000_0_1_n_n_1_1_21_wf
def dot_S128x128_S128x32000_S128x32000_1_0_0_1_n_n : DotDims S128x128 S128x32000 S128x32000 where
  lhsContracting := [1]
  rhsContracting := [0]
  lhsNonContracting := [0]
  rhsNonContracting := [1]
  lhsBatch := []
  rhsBatch := []
  wf := dot_S128x128_S128x32000_S128x32000_1_0_0_1_n_n_wf
def scatter_S100000x2_S800000x1_S800000x2_1_0_0_1 : ScatterDims S100000x2 S800000x1 S800000x2 where
  updateWindowDims := [1]
  insertedWindowDims := [0]
  scatterDimsToOperandDims := [0]
  indexVectorDim := 1
  wf := scatter_S100000x2_S800000x1_S800000x2_1_0_0_1_wf

abbrev win0_0 : Pipeline.Window sig grid0 :=
  Pipeline.Window.ofSpec (Memref.whole main_v15) S2x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S2x32000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x2 : Shape := ⟨2, ![100000, 2]⟩
abbrev S800000 : Shape := ⟨1, ![800000]⟩
abbrev S_ : Shape := ⟨0, ![]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S800000x1 : Shape := ⟨2, ![800000, 1]⟩
abbrev S800000x2 : Shape := ⟨2, ![800000, 2]⟩
abbrev S800000x128 : Shape := ⟨2, ![800000, 128]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S800000, .i32⟩
  | .hbm, ⟨3, _⟩ => ⟨S800000, .i32⟩
  | .hbm, ⟨4, _⟩ => ⟨S_, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x2, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x2, .f32⟩
  | .hbm, ⟨31, _⟩ => ⟨S800000x2, .f32⟩
  | .hbm, ⟨32, _⟩ => ⟨S800000x2, .f32⟩
  | .hbm, ⟨33, _⟩ => ⟨S_, .f32⟩
  | .hbm, ⟨34, _⟩ => ⟨S800000, .f32⟩
  | .hbm, ⟨35, _⟩ => ⟨S800000x1, .f32⟩
  | .hbm, ⟨36, _⟩ => ⟨S800000x1, .f32⟩
  | .hbm, ⟨37, _⟩ => ⟨S_, .f32⟩
  | .hbm, ⟨38, _⟩ => ⟨S800000x1, .f32⟩
  | .hbm, ⟨39, _⟩ => ⟨S800000x1, .f32⟩
  | .hbm, ⟨40, _⟩ => ⟨S800000x2, .f32⟩
  | .hbm, ⟨41, _⟩ => ⟨S800000x2, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S800000x1, .f32⟩
  | .hbm, ⟨64, _⟩ => ⟨S1x1, .f32⟩
  | .hbm, ⟨65, _⟩ => ⟨S800000x1, .f32⟩
  | .hbm, ⟨66, _⟩ => ⟨S800000x1, .f32⟩
  | .hbm, ⟨67, _⟩ => ⟨S800000x2, .f32⟩
  | .hbm, ⟨68, _⟩ => ⟨S800000x2, .f32⟩
  | .hbm, ⟨69, _⟩ => ⟨S_, .f32⟩
  | .hbm, ⟨70, _⟩ => ⟨S100000x2, .f32⟩
  | .hbm, ⟨71, _⟩ => ⟨S800000x1, .i32⟩
  | .hbm, ⟨72, _⟩ => ⟨S100000x2, .f32⟩
  | .hbm, ⟨73, _⟩ => ⟨S100000x2, .f32⟩
  | .hbm, ⟨74, _⟩ => ⟨S100000x2, .f32⟩
  | .hbm, ⟨75, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call2_cst : Ref sig .tc := ⟨.hbm, 53, rfl⟩
abbrev main_call2_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call3_cst : Ref sig .tc := ⟨.hbm, 60, rfl⟩
abbrev main_call3_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  reducesTo_S800000x2_S800000_d1 : S800000x2.ReducesTo [1] S800000
  h_S_ : 0 < S_.numel
  bcast_S_S800000x1 : S_.BroadcastsInDim S800000x1 (![] : Fin 0 → Fin S800000x1.rank)
  bcast_S800000x1_S800000x2_0_1 : S800000x1.BroadcastsInDim S800000x2 (![0, 1] : Fin 2 → Fin S800000x2.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S100000x2 : S_.BroadcastsInDim S100000x2 (![] : Fin 0 → Fin S100000x2.rank)
  gather_S100000x2_S800000x1_S800000x2_1_0_n_n_0_1_12_wf : GatherDims.WF S100000x2 S800000x1 S800000x2 [1] [0] [] [0] [] 1 ![1, 2]
  dot_S800000x1_S1x128_S800000x128_1_0_0_1_n_n_wf : DotDims.WF S800000x1 S1x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S100000x2_S800000x1_S800000x2_1_0_0_1_wf : ScatterDims.WF S100000x2 S800000x1 S800000x2 [1] [0] [0] 1

variable [Facts₀]

def gather_S100000x2_S800000x1_S800000x2_1_0_n_n_0_1_12 : GatherDims S100000x2 S800000x1 S800000x2 where
  offsetDims := [1]
  collapsedSliceDims := [0]
  operandBatchingDims := []
  startIndicesBatchingDims := []
  startIndexMap := [0]
  indexVectorDim := 1
  sliceSizes := ![1, 2]
  wf := gather_S100000x2_S800000x1_S800000x2_1_0_n_n_0_1_12_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S100000x2_S800000x1_S800000x2_1_0_0_1 : ScatterDims S100000x2 S800000x1 S800000x2 where
  updateWindowDims := [1]
  insertedWindowDims := [0]
  scatterDimsToOperandDims := [0]
  indexVectorDim := 1
  wf := scatter_S100000x2_S800000x1_S800000x2_1_0_0_1_wf

class Facts : Prop extends Facts₀ where

variable [Facts]
-- ==== Proof.EdgeSpec.lean ====
/-
  The force one edge exerts, as a function of the edge's displacement and the network's weights, on the extended reals.

  An edge with displacement dr (two coordinates) has length a = sqrt (dr 0 * dr 0 + dr 1 * dr 1). A network of three
  hidden layers of 128 units reads the length: the first layer is max (a * W0 j + b0 j) 0, each later layer
  max (sum over k of h k * W k j + b j) 0, and the output is the scalar sum over k of h k * W3 k + b3, the strength of
  the force. The force itself is that strength times the unit vector of the displacement, dr d / max a floor, the floor
  a small positive number that keeps a zero displacement from dividing by zero.

  Both programs compute this function edge by edge: one with the edges along the second axis of its arrays and the
  weights transposed, one with the edges along the first. Nothing here needs the numbers to be finite: the two
  arrangements differ by the order of the factors of each product and by how a sum's terms are laid out, and on the
  extended reals multiplication is commutative and a finite sum does not depend on its layout.
-/
import Idealize.ShloMosaic.PureOps.Ideal
import Idealize.ShloMosaic.Lib.ValueIdx

noncomputable section

namespace Cert.EdgeForce

open Idealize.ShloMosaic

/-- The floor under an edge's length: the number the 32-bit float word nearest 1e-12 denotes. -/
abbrev lenFloor : EReal := Ideal.ofBits .f32 0x2B8CBCCC#32

/-- The length of a displacement: the square root of the sum of its coordinates' squares. -/
def len (dr : Fin 2 → EReal) : EReal := Ideal.sqrt (∑ d : Fin 2, dr d * dr d)

/-- The first hidden layer, of the length alone: unit j is max (a * W0 j + b0 j) 0. -/
def hidFirst (W0 b0 : Fin 128 → EReal) (a : EReal) (j : Fin 128) : EReal := max (a * W0 j + b0 j) 0

/-- A later hidden layer: unit j is max (sum over k of h k * W k j + b j) 0. -/
def hidNext (W : Fin 128 → Fin 128 → EReal) (b : Fin 128 → EReal) (h : Fin 128 → EReal) (j : Fin 128) : EReal :=
  max ((∑ k : Fin 128, h k * W k j) + b j) 0

/-- The strength of the force: the output unit, sum over k of h k * W3 k + b3. -/
def strength (W3 : Fin 128 → EReal) (b3 : EReal) (h : Fin 128 → EReal) : EReal := (∑ k : Fin 128, h k * W3 k) + b3

/-- Coordinate d of the displacement's unit vector, the length floored. -/
def unitDir (dr : Fin 2 → EReal) (d : Fin 2) : EReal := Ideal.div (dr d) (max (len dr) lenFloor)

/-- Coordinate d of the force the edge exerts. -/
def force (W0 b0 : Fin 128 → EReal) (W1 : Fin 128 → Fin 128 → EReal) (b1 : Fin 128 → EReal)
    (W2 : Fin 128 → Fin 128 → EReal) (b2 : Fin 128 → EReal) (W3 : Fin 128 → EReal) (b3 : EReal)
    (dr : Fin 2 → EReal) (d : Fin 2) : EReal :=
  strength W3 b3 (hidNext W2 b2 (hidNext W1 b1 (hidFirst W0 b0 (len dr)))) * unitDir dr d

/-- A later hidden layer computed with each product's factors in the other order is the same layer. -/
theorem hidNext_comm (W : Fin 128 → Fin 128 → EReal) (b : Fin 128 → EReal) (h : Fin 128 → EReal) (j : Fin 128) :
    max ((∑ k : Fin 128, W k j * h k) + b j) 0 = hidNext W b h j := by
  unfold hidNext
  exact congrArg (fun s => max (s + b j) 0) (Finset.sum_congr rfl fun k _ => mul_comm _ _)

/-- The first hidden layer likewise. -/
theorem hidFirst_comm (W0 b0 : Fin 128 → EReal) (a : EReal) (j : Fin 128) :
    max (W0 j * a + b0 j) 0 = hidFirst W0 b0 a j := by
  unfold hidFirst; rw [mul_comm]

/-- A sum over the one index of a one-element axis is its one term. -/
theorem sum_fin_one (f : Fin 1 → EReal) : (∑ k : Fin 1, f k) = f 0 := by
  rw [Fin.sum_univ_one]

end Cert.EdgeForce

end
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibColBroadcast.lean ====
/-
  A column broadcast along the second axis, and a vector read as a column, at an index given by coordinates.

  A column, an array of shape [a, 1], broadcast along the second axis to [a, b] repeats the column in every one of
  the b columns: at (r, j) it reads the column's entry r, whatever j is. A vector of a entries reshaped to a
  column [a, 1] keeps its entries in order: the column reads, at (r, u), entry r of the vector. (The companions of
  the row forms: [1, b] broadcast to [a, b], and a vector [b] read as a row [1, b].)
-/
import Idealize.ShloMosaic.Lib.Pipeline.Value
import Idealize.ShloMosaic.Lib.ValueIdx

noncomputable section

namespace Cert.ColBroadcast

open Idealize.ShloMosaic Idealize.ShloMosaic.ValueIdx

/-- A column `[a, 1]` broadcast along the second axis to `[a, b]` reads, at `(r, j)`, the column's entry `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A vector of a entries cast to a column [a, 1] reads, at (r, u), entry r: the two indices have the same
    row-major position. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by have := u.isLt; omega
    rw [Shape.rowMajor_val_two, Shape.rowMajor_val_one]
    show r.val = r.val * 1 + u.val
    rw [hu]; omega)

end Cert.ColBroadcast

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.KernelBody.lean ====
/-
  What one grid point of the kernel computes, read at an index.

  At a grid point the kernel holds a block of 32000 edges, one per column: the two coordinates of each edge's
  displacement in a [2, 32000] block, and the network's weights as columns and transposed matrices. Its body is the
  edge's force, column by column: entry (d, q) of the block it stores is coordinate d of the force of the edge in
  column q, a function of column q of the displacement block and of the weights alone.

  The steps, in the body's order: the sum of a column's two squares and its square root, the edge's length (a row);
  the displacement divided by the floored length broadcast down the two rows, the unit vector; the first hidden layer,
  the weights' column times the length's row plus the bias column, floored at zero; two hidden layers, each a matrix
  product of the transposed weights with the previous layer plus a bias column, floored at zero; the output unit, the
  column sum of the last layer times the output weights' column, plus the output bias; and the product of that
  strength, broadcast down the two rows, with the unit vector. Each product here has its factors in the order
  weight times activation; the edge's force is stated activation times weight, and multiplication commutes.
-/
import proofs.«164643_j65549790871653_2_alg».proof.Proof.Gen.KernelIdeal.Skeleton
import proofs.«164643_j65549790871653_2_alg».proof.Proof.EdgeSpec
import proofs.«164643_j65549790871653_2_alg».proof.Proof.LibColSum
import proofs.«164643_j65549790871653_2_alg».proof.Proof.LibRowCast
import proofs.«164643_j65549790871653_2_alg».proof.Proof.LibRowBroadcast
import proofs.«164643_j65549790871653_2_alg».proof.Proof.LibColBroadcast
import proofs.«164643_j65549790871653_2_alg».proof.Proof.LibDotRows
import Idealize.ShloMosaic.Lib.Pipeline.Value
import Idealize.ShloMosaic.Lib.ValueIdx
import Idealize.ShloMosaic.PureOps.Ideal.Laws

-- the blocks' long axis has 32000 coordinates: unfolding a payload to its operations recurses past the default depth
set_option maxRecDepth 65536

noncomputable section

namespace Cert.KernelIdeal.BodyValue

open Idealize.ShloMosaic Idealize.ShloMosaic.ValueIdx Idealize.SL.Sem
open Cert.KernelIdeal Cert.KernelIdeal.Gen Cert.EdgeForce Cert.Hand

/-- Column q of a displacement block: the two coordinates of the edge in that column. -/
abbrev colOf (x0 : Vec Ideal S2x32000 .f32) (q : Fin 32000) : Fin 2 → EReal := fun d => x0 (ix2 d q)
/-- A column block [128, 1] read as a vector of 128 entries. -/
abbrev vecOf (x : Vec Ideal S128x1 .f32) : Fin 128 → EReal := fun j => x (ix2 j (0 : Fin 1))
/-- A transposed weight block read as the weights: entry (k, j) of the weights is entry (j, k) of the block. -/
abbrev matOfT (x : Vec Ideal S128x128 .f32) : Fin 128 → Fin 128 → EReal := fun k j => x (ix2 j k)

/-- The length's row, at column q: the length of the edge in that column. -/
theorem len_row (x0 : Vec Ideal S2x32000 .f32) (u : Fin 1) (q : Fin 32000) :
    k0_pay3 (F := Ideal) x0 (ix2 u q) = len (colOf x0 q) := by
  show Ideal.sqrt (shapeCast S1x32000 (multiReduction (F := Ideal) .add [0] S32000 (mulf (shapeCast S2x32000 x0 shapeCasts_S2x32000_S2x32000)
    (shapeCast S2x32000 x0 shapeCasts_S2x32000_S2x32000)) 0x00000000#32 reduces_S2x32000_S32000 (.inl rfl) rfl)
    shapeCasts_S32000_S1x32000 (ix2 u q)) = Ideal.sqrt (∑ d : Fin 2, x0 (ix2 d q) * x0 (ix2 d q))
  refine congrArg Ideal.sqrt ?_
  refine (Cert.RowCast.shapeCast_row_apply _ shapeCasts_S32000_S1x32000 u q).trans ?_
  refine (Cert.ColSum.multiReduction_add_col _ _ reduces_S2x32000_S32000 (.inl rfl) rfl q).trans ?_
  refine Finset.sum_congr rfl fun k _ => ?_
  show shapeCast S2x32000 x0 shapeCasts_S2x32000_S2x32000 (ix2 k q) * shapeCast S2x32000 x0 shapeCasts_S2x32000_S2x32000 (ix2 k q) = _
  rw [shapeCast_self]

/-- The unit vector's block, at (d, q): coordinate d of the unit vector of the edge in column q. -/
theorem unit_block (x0 : Vec Ideal S2x32000 .f32) (d : Fin 2) (q : Fin 32000) :
    k0_pay4 (F := Ideal) x0 (ix2 d q) = unitDir (colOf x0 q) d := by
  show Ideal.div (shapeCast S2x32000 x0 shapeCasts_S2x32000_S2x32000 (ix2 d q))
    (broadcastTo S2x32000 (maximumf (k0_pay3 (F := Ideal) x0) (broadcast S1x32000 (Scalar.ofBits (F := Ideal) .f32 0x2B8CBCCC#32)))
      broadcasts_S1x32000_S2x32000 (ix2 d q)) = Ideal.div (x0 (ix2 d q)) (max (len (colOf x0 q)) lenFloor)
  rw [shapeCast_self, Cert.RowBroadcast.broadcastTo_1b_ab_apply]
  show Ideal.div (x0 (ix2 d q)) (max (k0_pay3 (F := Ideal) x0 (ix2 (0 : Fin 1) q)) lenFloor) = _
  rw [len_row]

/-! ## The hidden layers -/

/-- The first hidden layer's block: the weights' column times the length's row, plus the bias column, floored at zero. -/
def hidFirstBlock (x0 : Vec Ideal S2x32000 .f32) (x1 x2 : Vec Ideal S128x1 .f32) : FVec Ideal S128x32000 .f32 :=
  maximumf (addf (mulf (broadcastTo S128x32000 (shapeCast S128x1 x1 shapeCasts_S128x1_S128x1) broadcasts_S128x1_S128x32000)
      (broadcastTo S128x32000 (k0_pay3 (F := Ideal) x0) broadcasts_S1x32000_S128x32000))
    (broadcastTo S128x32000 (shapeCast S128x1 x2 shapeCasts_S128x1_S128x1) broadcasts_S128x1_S128x32000))
    (broadcast S128x32000 (Scalar.ofBits (F := Ideal) .f32 0x00000000#32))

/-- A later layer before its floor: the transposed weights times the previous layer's block, plus the bias column. -/
def layerBlock (W : Vec Ideal S128x128 .f32) (b : Vec Ideal S128x1 .f32) (h : FVec Ideal S128x32000 .f32) :
    FVec Ideal S128x32000 .f32 :=
  addf (matmul dot_S128x128_S128x32000_S128x32000_1_0_0_1_n_n (some .fp32) (shapeCast S128x128 W shapeCasts_S128x128_S128x128 : FVec Ideal S128x128 .f32) h
      (constant S128x32000 .f32 0x00000000#32))
    (broadcastTo S128x32000 (shapeCast S128x1 b shapeCasts_S128x1_S128x1) broadcasts_S128x1_S128x32000)

/-- A block floored at zero. -/
def floorBlock (h : FVec Ideal S128x32000 .f32) : FVec Ideal S128x32000 .f32 :=
  maximumf h (broadcast S128x32000 (Scalar.ofBits (F := Ideal) .f32 0x00000000#32))

/-- The body's third layer, before its floor, is two layers over the first. -/
theorem layers_eq (x0 : Vec Ideal S2x32000 .f32) (x1 x2 : Vec Ideal S128x1 .f32) (x3 : Vec Ideal S128x128 .f32)
    (x4 : Vec Ideal S128x1 .f32) (x5 : Vec Ideal S128x128 .f32) (x6 : Vec Ideal S128x1 .f32) :
    k0_pay5 (F := Ideal) x0 x1 x2 x3 x4 x5 x6 = layerBlock x5 x6 (floorBlock (layerBlock x3 x4 (hidFirstBlock x0 x1 x2))) := rfl

/-- The first hidden layer's block at (j, q): unit j of the first layer of the edge in column q. -/
theorem hidFirstBlock_apply (x0 : Vec Ideal S2x32000 .f32) (x1 x2 : Vec Ideal S128x1 .f32) (j : Fin 128) (q : Fin 32000) :
    hidFirstBlock x0 x1 x2 (ix2 j q) = hidFirst (vecOf x1) (vecOf x2) (len (colOf x0 q)) j := by
  show max (broadcastTo S128x32000 (shapeCast S128x1 x1 shapeCasts_S128x1_S128x1) broadcasts_S128x1_S128x32000 (ix2 j q)
      * broadcastTo S128x32000 (k0_pay3 (F := Ideal) x0) broadcasts_S1x32000_S128x32000 (ix2 j q)
      + broadcastTo S128x32000 (shapeCast S128x1 x2 shapeCasts_S128x1_S128x1) broadcasts_S128x1_S128x32000 (ix2 j q))
    (Ideal.ofBits .f32 0x00000000#32) = _
  rw [Cert.ColBroadcast.broadcastTo_a1_ab_apply, Cert.RowBroadcast.broadcastTo_1b_ab_apply,
    Cert.ColBroadcast.broadcastTo_a1_ab_apply, shapeCast_self, shapeCast_self, len_row, Ideal.ofBits_zero_f32]
  exact hidFirst_comm (vecOf x1) (vecOf x2) (len (colOf x0 q)) j

/-- The matrix product of a [128, 128] block with a [128, 32000] block into zero, at (p, q): the sum over k of
    left (p, k) times right (k, q). -/
theorem matmul_rows (l : FVec Ideal S128x128 .f32) (r : FVec Ideal S128x32000 .f32) (p : Fin 128) (q : Fin 32000) :
    matmul dot_S128x128_S128x32000_S128x32000_1_0_0_1_n_n (some .fp32) l r (constant S128x32000 .f32 0x00000000#32) (ix2 p q)
      = ∑ k : Fin 128, l (ix2 p k) * r (ix2 k q) := by
  refine (Ideal.matmul_constant_zero_apply dot_S128x128_S128x32000_S128x32000_1_0_0_1_n_n (some .fp32) l r (ix2 p q)).trans ?_
  dot_rows dot_S128x128_S128x32000_S128x32000_1_0_0_1_n_n S128x128 S128x32000 128

/-- A later layer's floored block at (j, q), the previous block's column q known: unit j of the next layer. -/
theorem layer_apply (W : Vec Ideal S128x128 .f32) (b : Vec Ideal S128x1 .f32) (h : FVec Ideal S128x32000 .f32)
    (H : Fin 128 → EReal) (q : Fin 32000) (hH : ∀ k, h (ix2 k q) = H k) (j : Fin 128) :
    floorBlock (layerBlock W b h) (ix2 j q) = hidNext (matOfT W) (vecOf b) H j := by
  show max (matmul dot_S128x128_S128x32000_S128x32000_1_0_0_1_n_n (some .fp32) (shapeCast S128x128 W shapeCasts_S128x128_S128x128 : FVec Ideal S128x128 .f32) h
        (constant S128x32000 .f32 0x00000000#32) (ix2 j q)
      + broadcastTo S128x32000 (shapeCast S128x1 b shapeCasts_S128x1_S128x1) broadcasts_S128x1_S128x32000 (ix2 j q))
    (Ideal.ofBits .f32 0x00000000#32) = _
  rw [matmul_rows, Cert.ColBroadcast.broadcastTo_a1_ab_apply, shapeCast_self, shapeCast_self, Ideal.ofBits_zero_f32]
  rw [show (∑ k : Fin 128, W (ix2 j k) * h (ix2 k q)) = ∑ k : Fin 128, matOfT W k j * H k from
    Finset.sum_congr rfl fun k _ => by rw [hH k]]
  exact hidNext_comm (matOfT W) (vecOf b) H j

/-! ## The stored block -/

/-- The block the body stores, at (d, q): the column sum of the floored last layer times the output weights, plus
    the output bias, times the unit vector's entry. -/
theorem store_apply (v9 : FVec Ideal S2x32000 .f32) (v36 : FVec Ideal S128x32000 .f32) (x7 : Vec Ideal S128x1 .f32)
    (x8 : Vec Ideal S1x1 .f32) (d : Fin 2) (q : Fin 32000) :
    k0_pay1 (F := Ideal) v9 v36 (k0_pay6 (F := Ideal)) x7 x8 (ix2 d q)
      = ((∑ k : Fin 128, floorBlock v36 (ix2 k q) * x7 (ix2 k (0 : Fin 1))) + x8 (ix2 (0 : Fin 1) (0 : Fin 1))) * v9 (ix2 d q) := by
  show broadcastTo S2x32000 (addf (shapeCast S1x32000 (multiReduction (F := Ideal) .add [0] S32000
        (mulf (floorBlock v36) (broadcastTo S128x32000 x7 broadcasts_S128x1_S128x32000)) 0x00000000#32 reduces_S128x32000_S32000 (.inl rfl) rfl)
        shapeCasts_S32000_S1x32000)
      (broadcastTo S1x32000 (shapeCast S1x1 x8 shapeCasts_S1x1_S1x1) broadcasts_S1x1_S1x32000)) broadcasts_S1x32000_S2x32000 (ix2 d q)
    * v9 (ix2 d q) = _
  rw [Cert.RowBroadcast.broadcastTo_1b_ab_apply]
  show (shapeCast S1x32000 (multiReduction (F := Ideal) .add [0] S32000
        (mulf (floorBlock v36) (broadcastTo S128x32000 x7 broadcasts_S128x1_S128x32000)) 0x00000000#32 reduces_S128x32000_S32000 (.inl rfl) rfl)
        shapeCasts_S32000_S1x32000 (ix2 (0 : Fin 1) q)
      + broadcastTo S1x32000 (shapeCast S1x1 x8 shapeCasts_S1x1_S1x1) broadcasts_S1x1_S1x32000 (ix2 (0 : Fin 1) q)) * v9 (ix2 d q) = _
  refine congrArg (· * v9 (ix2 d q)) ?_
  refine congrArg₂ (· + ·) ?_ ?_
  · refine (Cert.RowCast.shapeCast_row_apply _ shapeCasts_S32000_S1x32000 (0 : Fin 1) q).trans ?_
    refine (Cert.ColSum.multiReduction_add_col _ _ reduces_S128x32000_S32000 (.inl rfl) rfl q).trans ?_
    refine Finset.sum_congr rfl fun k _ => ?_
    show floorBlock v36 (ix2 k q) * broadcastTo S128x32000 x7 broadcasts_S128x1_S128x32000 (ix2 k q) = _
    rw [Cert.ColBroadcast.broadcastTo_a1_ab_apply]
  · rw [Cert.ColBroadcast.broadcastTo_a1_ab_apply, shapeCast_self]

/-! ## The body -/

/-- A [1, 1] block read as its one number. -/
abbrev numOf (x : Vec Ideal S1x1 .f32) : EReal := x (ix2 (0 : Fin 1) (0 : Fin 1))

/-- THE BODY AT (d, q): the stored block's entry is coordinate d of the force of the edge in column q, a function
    of that column of the displacement block and of the weight blocks. -/
theorem body_apply (x0 : Vec Ideal S2x32000 .f32) (x1 x2 : Vec Ideal S128x1 .f32) (x3 : Vec Ideal S128x128 .f32)
    (x4 : Vec Ideal S128x1 .f32) (x5 : Vec Ideal S128x128 .f32) (x6 x7 : Vec Ideal S128x1 .f32) (x8 : Vec Ideal S1x1 .f32)
    (d : Fin 2) (q : Fin 32000) :
    k0_pay1 (F := Ideal) (k0_pay4 (F := Ideal) x0) (k0_pay5 (F := Ideal) x0 x1 x2 x3 x4 x5 x6) (k0_pay6 (F := Ideal)) x7 x8 (ix2 d q)
      = force (vecOf x1) (vecOf x2) (matOfT x3) (vecOf x4) (matOfT x5) (vecOf x6) (vecOf x7) (numOf x8) (colOf x0 q) d := by
  rw [store_apply, unit_block, layers_eq]
  unfold force strength
  refine congrArg (fun s => (s + numOf x8) * unitDir (colOf x0 q) d) (Finset.sum_congr rfl fun k _ => ?_)
  refine congrArg (· * x7 (ix2 k (0 : Fin 1))) ?_
  refine layer_apply x5 x6 _ _ q (fun k' => ?_) k
  exact layer_apply x3 x4 _ _ q (fun k'' => hidFirstBlock_apply x0 x1 x2 k'' q) k'

end Cert.KernelIdeal.BodyValue

end
-- ==== Proof.KernelRegion.lean ====
/-
  The kernel's output array after its region, as one function of the arrays the region finds.

  The region runs the body at 25 grid points. Point t holds columns 32000 t to 32000 t + 31999 of the displacement
  array [2, 800000] and of the output array [2, 800000], and the whole of every weight array. The body's stored block
  is, column by column, the force of the edge in that column; the 25 blocks are written back side by side and tile the
  output array, so after the region entry (d, e) of the output array is coordinate d of the force of edge e: the
  displacement in column e of the displacement array, through the network whose weights are the weight arrays.
-/
import proofs.«164643_j65549790871653_2_alg».proof.Proof.Gen.KernelIdeal.Frame
import proofs.«164643_j65549790871653_2_alg».proof.Proof.KernelBody
import Idealize.ShloMosaic.Lib.Pipeline.Value
import Idealize.ShloMosaic.Lib.ValueIdx

set_option maxRecDepth 16384

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen Cert.EdgeForce Cert.KernelIdeal.BodyValue

variable (m : (ℓ : Loc nD τ sig) → Buf (Elt Ideal) ℓ)

theorem zeros2 : (![0, 0] : Fin 2 → Nat) = fun _ => 0 := funext fun a => by fin_cases a <;> rfl

/-- Entry (d, e) of the forces' array: coordinate d of the force of edge e, whose displacement is column e of the
    displacement array, through the network whose weights are the weight arrays. -/
def forcesOf (dr : S2x800000.Idx → Elt Ideal .f32) (w0 b0 : S128x1.Idx → Elt Ideal .f32) (w1 : S128x128.Idx → Elt Ideal .f32)
    (b1 : S128x1.Idx → Elt Ideal .f32) (w2 : S128x128.Idx → Elt Ideal .f32) (b2 w3 : S128x1.Idx → Elt Ideal .f32)
    (b3 : S1x1.Idx → Elt Ideal .f32) : S2x800000.Idx → Elt Ideal .f32 := fun i =>
  force (vecOf w0) (vecOf b0) (matOfT w1) (vecOf b1) (matOfT w2) (vecOf b2) (vecOf w3) (numOf b3)
    (fun d' => dr (ix2 d' (⟨(i 1).val, idx2_lt1 i⟩ : Fin 800000))) (⟨(i 0).val, idx2_lt0 i⟩ : Fin 2)

/-- The forces' array of the arrays the region finds on core c. -/
abbrev forcesAt (c : Dev nD) : S2x800000.Idx → Elt Ideal .f32 :=
  forcesOf (V m c main_v15) (V m c main_v16) (V m c main_v17) (V m c main_v18) (V m c main_v19) (V m c main_v20)
    (V m c main_v21) (V m c main_arg11) (V m c main_v22)

/-- The printed index maps, decided over the grid: the displacement's and the output's blocks move along the second
    axis with the point, every weight's block stays at the origin. -/
theorem index_facts : ∀ t : Fin cfg0.N,
    win0_0.index t (0 : Fin 2) = 0 ∧ win0_0.index t (1 : Fin 2) = t.val
    ∧ win0_9.index t (0 : Fin 2) = 0 ∧ win0_9.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Where entry (d, q) of point t's output block sits in the output array: (d, 32000 t + q). -/
theorem out_emb (t : Fin cfg0.N) (d : Fin 2) (q : Fin 32000) (h : t.val * 32000 + q.val < 800000) :
    ((cfg0.win 9).blk t).view.emb (ix2 d q) = ix2 d (⟨t.val * 32000 + q.val, h⟩ : Fin 800000) := by
  obtain ⟨-, -, e0, e1, -⟩ := index_facts t
  funext a; apply Fin.ext
  match a with
  | ⟨0, _⟩ => show win0_9.index t (0 : Fin 2) * 2 + 1 * d.val = d.val; omega
  | ⟨1, _⟩ => show win0_9.index t (1 : Fin 2) * 32000 + 1 * q.val = t.val * 32000 + q.val; omega

/-- Where entry (d, q) of point t's displacement block sits in the displacement array: the same place. -/
theorem dr_emb (t : Fin cfg0.N) (d : Fin 2) (q : Fin 32000) (h : t.val * 32000 + q.val < 800000) :
    ((cfg0.win 0).blk t).view.emb (ix2 d q) = ix2 d (⟨t.val * 32000 + q.val, h⟩ : Fin 800000) := by
  obtain ⟨e0, e1, -⟩ := index_facts t
  funext a; apply Fin.ext
  match a with
  | ⟨0, _⟩ => show win0_0.index t (0 : Fin 2) * 2 + 1 * d.val = d.val; omega
  | ⟨1, _⟩ => show win0_0.index t (1 : Fin 2) * 32000 + 1 * q.val = t.val * 32000 + q.val; omega

/-! ## The blocks a point reads -/

/-- Window 1's block at any point is its whole array. -/
theorem whole_blk1 (c : Dev nD) (t : Fin cfg0.N) (y : S128x1.Idx) : iblk m c 1 t y = V m c main_v16 y := by
  have hf := index_facts t
  refine congrArg (V m c main_v16) (?_ : ((cfg0.win 1).blk t).view.emb y = y)
  funext a; apply Fin.ext
  match a with
  | ⟨0, _⟩ => show win0_1.index t (0 : Fin 2) * 128 + 1 * (y 0).val = (y 0).val; omega
  | ⟨1, _⟩ => show win0_1.index t (1 : Fin 2) * 1 + 1 * (y 1).val = (y 1).val; omega
/-- Window 2's block at any point is its whole array. -/
theorem whole_blk2 (c : Dev nD) (t : Fin cfg0.N) (y : S128x1.Idx) : iblk m c 2 t y = V m c main_v17 y := by
  have hf := index_facts t
  refine congrArg (V m c main_v17) (?_ : ((cfg0.win 2).blk t).view.emb y = y)
  funext a; apply Fin.ext
  match a with
  | ⟨0, _⟩ => show win0_2.index t (0 : Fin 2) * 128 + 1 * (y 0).val = (y 0).val; omega
  | ⟨1, _⟩ => show win0_2.index t (1 : Fin 2) * 1 + 1 * (y 1).val = (y 1).val; omega
/-- Window 3's block at any point is its whole array. -/
theorem whole_blk3 (c : Dev nD) (t : Fin cfg0.N) (y : S128x128.Idx) : iblk m c 3 t y = V m c main_v18 y := by
  have hf := index_facts t
  refine congrArg (V m c main_v18) (?_ : ((cfg0.win 3).blk t).view.emb y = y)
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega
/-- Window 4's block at any point is its whole array. -/
theorem whole_blk4 (c : Dev nD) (t : Fin cfg0.N) (y : S128x1.Idx) : iblk m c 4 t y = V m c main_v19 y := by
  have hf := index_facts t
  refine congrArg (V m c main_v19) (?_ : ((cfg0.win 4).blk t).view.emb y = y)
  funext a; apply Fin.ext
  match a with
  | ⟨0, _⟩ => show win0_4.index t (0 : Fin 2) * 128 + 1 * (y 0).val = (y 0).val; omega
  | ⟨1, _⟩ => show win0_4.index t (1 : Fin 2) * 1 + 1 * (y 1).val = (y 1).val; omega
/-- Window 5's block at any point is its whole array. -/
theorem whole_blk5 (c : Dev nD) (t : Fin cfg0.N) (y : S128x128.Idx) : iblk m c 5 t y = V m c main_v20 y := by
  have hf := index_facts t
  refine congrArg (V m c main_v20) (?_ : ((cfg0.win 5).blk t).view.emb y = y)
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega
/-- Window 6's block at any point is its whole array. -/
theorem whole_blk6 (c : Dev nD) (t : Fin cfg0.N) (y : S128x1.Idx) : iblk m c 6 t y = V m c main_v21 y := by
  have hf := index_facts t
  refine congrArg (V m c main_v21) (?_ : ((cfg0.win 6).blk t).view.emb y = y)
  funext a; apply Fin.ext
  match a with
  | ⟨0, _⟩ => show win0_6.index t (0 : Fin 2) * 128 + 1 * (y 0).val = (y 0).val; omega
  | ⟨1, _⟩ => show win0_6.index t (1 : Fin 2) * 1 + 1 * (y 1).val = (y 1).val; omega
/-- Window 7's block at any point is its whole array. -/
theorem whole_blk7 (c : Dev nD) (t : Fin cfg0.N) (y : S128x1.Idx) : iblk m c 7 t y = V m c main_arg11 y := by
  have hf := index_facts t
  refine congrArg (V m c main_arg11) (?_ : ((cfg0.win 7).blk t).view.emb y = y)
  funext a; apply Fin.ext
  match a with
  | ⟨0, _⟩ => show win0_7.index t (0 : Fin 2) * 128 + 1 * (y 0).val = (y 0).val; omega
  | ⟨1, _⟩ => show win0_7.index t (1 : Fin 2) * 1 + 1 * (y 1).val = (y 1).val; omega
/-- Window 8's block at any point is its whole array. -/
theorem whole_blk8 (c : Dev nD) (t : Fin cfg0.N) (y : S1x1.Idx) : iblk m c 8 t y = V m c main_v22 y := by
  have hf := index_facts t
  refine congrArg (V m c main_v22) (?_ : ((cfg0.win 8).blk t).view.emb y = y)
  funext a; apply Fin.ext
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- The displacement window's block at point t, at (d, q): the displacement array at (d, 32000 t + q). -/
theorem dr_blk (c : Dev nD) (t : Fin cfg0.N) (d : Fin 2) (q : Fin 32000) (h : t.val * 32000 + q.val < 800000) :
    iblk m c 0 t (ix2 d q) = V m c main_v15 (ix2 d (⟨t.val * 32000 + q.val, h⟩ : Fin 800000)) :=
  congrArg (V m c main_v15) (dr_emb t d q h)

/-! ## What a point writes back, and the whole array -/

/-- WHAT POINT t WRITES BACK is block t of the forces' array of the arrays the region finds. -/
theorem flushed_eq (c : Dev nD) (t : Fin cfg0.N) :
    (dats m 0 c).flushed 9 t = ((cfg0.win 9).blk t).view.read (Elt Ideal) (forcesAt m c) := by
  show (cfg0.win 9).cut (grid0.coords t) ((dats m 0 c).after 9 t) = _
  rw [after0_9]
  unfold out0_9
  rw [View.canon_unit_zero zeros2]
  simp only [View.ld_unit_zero (S := S2x32000) zeros2, View.ld_unit_zero (S := S128x1) zeros2,
    View.ld_unit_zero (S := S128x128) zeros2, View.ld_unit_zero (S := S1x1) zeros2]
  funext y
  obtain ⟨d, q, rfl⟩ : ∃ (d : Fin 2) (q : Fin 32000), y = ix2 d q := ⟨y 0, y 1, eq_ix2 y⟩
  have hq : t.val * 32000 + q.val < 800000 := by
    have ht : t.val < 25 := t.isLt
    have := q.isLt; omega
  show k0_pay1 (F := Ideal) (k0_pay4 (F := Ideal) (iblk m c 0 t))
      (k0_pay5 (F := Ideal) (iblk m c 0 t) (iblk m c 1 t) (iblk m c 2 t) (iblk m c 3 t) (iblk m c 4 t) (iblk m c 5 t) (iblk m c 6 t))
      (k0_pay6 (F := Ideal)) (iblk m c 7 t) (iblk m c 8 t) (ix2 d q)
    = forcesAt m c (((cfg0.win 9).blk t).view.emb (ix2 d q))
  refine (body_apply (iblk m c 0 t) (iblk m c 1 t) (iblk m c 2 t) (iblk m c 3 t) (iblk m c 4 t) (iblk m c 5 t) (iblk m c 6 t)
    (iblk m c 7 t) (iblk m c 8 t) d q).trans ?_
  rw [out_emb t d q hq]
  have h0 : colOf (iblk m c 0 t) q = fun d' => V m c main_v15 (ix2 d' (⟨t.val * 32000 + q.val, hq⟩ : Fin 800000)) :=
    funext fun d' => dr_blk m c t d' q hq
  have h1 : vecOf (iblk m c 1 t) = vecOf (V m c main_v16) := funext fun j => whole_blk1 m c t (ix2 j (0 : Fin 1))
  have h2 : vecOf (iblk m c 2 t) = vecOf (V m c main_v17) := funext fun j => whole_blk2 m c t (ix2 j (0 : Fin 1))
  have h3 : matOfT (iblk m c 3 t) = matOfT (V m c main_v18) := funext fun k => funext fun j => whole_blk3 m c t (ix2 j k)
  have h4 : vecOf (iblk m c 4 t) = vecOf (V m c main_v19) := funext fun j => whole_blk4 m c t (ix2 j (0 : Fin 1))
  have h5 : matOfT (iblk m c 5 t) = matOfT (V m c main_v20) := funext fun k => funext fun j => whole_blk5 m c t (ix2 j k)
  have h6 : vecOf (iblk m c 6 t) = vecOf (V m c main_v21) := funext fun j => whole_blk6 m c t (ix2 j (0 : Fin 1))
  have h7 : vecOf (iblk m c 7 t) = vecOf (V m c main_arg11) := funext fun j => whole_blk7 m c t (ix2 j (0 : Fin 1))
  have h8 : numOf (iblk m c 8 t) = numOf (V m c main_v22) := whole_blk8 m c t (ix2 (0 : Fin 1) (0 : Fin 1))
  rw [h0, h1, h2, h3, h4, h5, h6, h7, h8]
  rfl

/-- An index of the output array is in point t's block iff each coordinate is in the block's range on its axis. -/
theorem mem_out_blk (t : Fin cfg0.N) (i : S2x800000.Idx) :
    i ∈ ((cfg0.win 9).blk t).view.set ↔ ∀ a : Fin 2, win0_9.index t a * S2x32000.size a ≤ (i a).val
      ∧ (i a).val < win0_9.index t a * S2x32000.size a + S2x32000.size a := by
  show i ∈ ((View.whole main_v23).slice (win0_9.rect t)).set ↔ _
  rw [View.set_slice_whole, Rect.mem_set_unit]
  exact Iff.rfl

/-- The 25 blocks tile the output array: column e is in the block of point e / 32000. -/
theorem out_cover (i : S2x800000.Idx) :
    ∃ t : Fin cfg0.N, (cfg0.win 9).flush t = true ∧ i ∈ ((cfg0.win 9).blk t).view.set := by
  have hi0 : (i 0).val < 2 := (i 0).isLt
  have hi1 : (i 1).val < 800000 := (i 1).isLt
  obtain ⟨t, ht⟩ : ∃ t : Fin cfg0.N, t.val = (i 1).val / 32000 :=
    ⟨⟨(i 1).val / 32000, (show (i 1).val / 32000 < 25 by omega)⟩, rfl⟩
  have hf := index_facts t
  refine ⟨t, flush0_9 t, ?_⟩
  rw [mem_out_blk]
  intro a
  match a with
  | ⟨0, _⟩ => show win0_9.index t (0 : Fin 2) * 2 ≤ (i 0).val ∧ (i 0).val < win0_9.index t (0 : Fin 2) * 2 + 2; omega
  | ⟨1, _⟩ => show win0_9.index t (1 : Fin 2) * 32000 ≤ (i 1).val ∧ (i 1).val < win0_9.index t (1 : Fin 2) * 32000 + 32000; omega

/-- THE OUTPUT ARRAY after the region: the forces' array of the arrays the region finds. -/
theorem region_out (c : Dev nD) : (dats m 0 c).arrAt 9 cfg0.N = forcesAt m c :=
  (dats m 0 c).arrAt_eq_of_cover 9 (forcesAt m c) (fun t _ => flushed_eq m c t) out_cover

end Cert.KernelIdeal.RegionValue

end
-- ==== Proof.RefEdge.lean ====
/-
  The reference's force on each edge, read at an index.

  The reference keeps the edges along the first axis: row e of its [800000, 2] displacement array is edge e's
  displacement, and every later array has one row per edge. Stage by stage its row e is the edge's force of that
  displacement: the row's sum of squares and its square root, the length; the row divided by the floored length, the
  unit vector; the length (a one-column matrix) times the first weights (a one-row matrix), a contraction over an axis
  of extent one, so one product, plus the bias, floored at zero; two layers, each the previous layer's row times the
  weight matrix plus the bias, floored at zero; the row times the output weights plus the output bias, the strength;
  and the strength times the unit vector. Each product has its factors in the order activation times weight, the
  order the edge's force is stated in.
-/
import proofs.«164643_j65549790871653_2_alg».proof.Proof.Gen.ReferenceIdeal.Read
import proofs.«164643_j65549790871653_2_alg».proof.Proof.EdgeSpec
import Idealize.ShloMosaic.Lib.ValueIdx
import Idealize.ShloMosaic.PureOps.Ideal.Laws

noncomputable section

namespace Cert.ReferenceIdeal.EdgeValue

open Idealize.ShloMosaic Idealize.ShloMosaic.ValueIdx Idealize.SL.Sem
open Cert.ReferenceIdeal Cert.ReferenceIdeal.Read Cert.EdgeForce

variable (x0 : (⟨S100000x2, .f32⟩ : BufTy).Contents (Elt Ideal)) (x2 x3 : (⟨S800000, .i32⟩ : BufTy).Contents (Elt Ideal))
  (x5 : (⟨S1x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal)) (x11 : (⟨S128x1, .f32⟩ : BufTy).Contents (Elt Ideal)) (x12 : (⟨S1, .f32⟩ : BufTy).Contents (Elt Ideal))

/-- Edge e's displacement: row e of the displacement array. -/
abbrev drOf (e : Fin 800000) : Fin 2 → EReal := fun d => val_main_v14 (F := Ideal) x0 x2 x3 (ix2 e d)
/-- A one-row matrix [1, 128] read as a vector of 128 entries. -/
abbrev rowVec (x : (⟨S1x128, .f32⟩ : BufTy).Contents (Elt Ideal)) : Fin 128 → EReal := fun j => x (ix2 (0 : Fin 1) j)
/-- A vector [128] read by its one coordinate. -/
abbrev vec (x : (⟨S128, .f32⟩ : BufTy).Contents (Elt Ideal)) : Fin 128 → EReal := fun j => x (ix1 j)
/-- A weight matrix read by its two coordinates. -/
abbrev mat (x : (⟨S128x128, .f32⟩ : BufTy).Contents (Elt Ideal)) : Fin 128 → Fin 128 → EReal := fun k j => x (ix2 k j)
/-- A one-column matrix [128, 1] read as a vector of 128 entries. -/
abbrev colVec (x : (⟨S128x1, .f32⟩ : BufTy).Contents (Elt Ideal)) : Fin 128 → EReal := fun k => x (ix2 k (0 : Fin 1))
/-- A vector [1] read as its one number. -/
abbrev num (x : (⟨S1, .f32⟩ : BufTy).Contents (Elt Ideal)) : EReal := x (ix1 (0 : Fin 1))

/-! ## Where each stage reads its operands -/

theorem at_sum (e : Fin 800000) (u : Fin 1) (k : Fin 2) : idx_main_call0_v1 (idx_main_call0_v2 (ix2 e u)) k = ix2 e k :=
  funext fun a => Fin.ext (by match a with | ⟨0, _⟩ => rfl | ⟨1, _⟩ => rfl)
theorem at_v18 (e : Fin 800000) (d : Fin 2) : idx_main_v18 (ix2 e d) = ix2 e (0 : Fin 1) :=
  funext fun a => Fin.ext (by match a with | ⟨0, _⟩ => rfl | ⟨1, _⟩ => rfl)
theorem at_v39 (e : Fin 800000) (d : Fin 2) : idx_main_v39 (ix2 e d) = ix2 e (0 : Fin 1) :=
  funext fun a => Fin.ext (by match a with | ⟨0, _⟩ => rfl | ⟨1, _⟩ => rfl)
theorem at_l20 (e : Fin 800000) (j : Fin 128) (k : Fin 1) : lidx_main_v20 (ix2 e j) k = ix2 e k :=
  funext fun a => Fin.ext (by match a with | ⟨0, _⟩ => rfl | ⟨1, _⟩ => rfl)
theorem at_r20 (e : Fin 800000) (j : Fin 128) (k : Fin 1) : ridx_main_v20 (ix2 e j) k = ix2 k j :=
  funext fun a => Fin.ext (by match a with | ⟨0, _⟩ => rfl | ⟨1, _⟩ => rfl)
theorem at_b22 (e : Fin 800000) (j : Fin 128) : idx_main_v21 (idx_main_v22 (ix2 e j)) = ix1 j :=
  funext fun a => Fin.ext (by match a with | ⟨0, _⟩ => rfl)
theorem at_l25 (e : Fin 800000) (j k : Fin 128) : lidx_main_v25 (ix2 e j) k = ix2 e k :=
  funext fun a => Fin.ext (by match a with | ⟨0, _⟩ => rfl | ⟨1, _⟩ => rfl)
theorem at_r25 (e : Fin 800000) (j k : Fin 128) : ridx_main_v25 (ix2 e j) k = ix2 k j :=
  funext fun a => Fin.ext (by match a with | ⟨0, _⟩ => rfl | ⟨1, _⟩ => rfl)
theorem at_b27 (e : Fin 800000) (j : Fin 128) : idx_main_v26 (idx_main_v27 (ix2 e j)) = ix1 j :=
  funext fun a => Fin.ext (by match a with | ⟨0, _⟩ => rfl)
theorem at_l30 (e : Fin 800000) (j k : Fin 128) : lidx_main_v30 (ix2 e j) k = ix2 e k :=
  funext fun a => Fin.ext (by match a with | ⟨0, _⟩ => rfl | ⟨1, _⟩ => rfl)
theorem at_r30 (e : Fin 800000) (j k : Fin 128) : ridx_main_v30 (ix2 e j) k = ix2 k j :=
  funext fun a => Fin.ext (by match a with | ⟨0, _⟩ => rfl | ⟨1, _⟩ => rfl)
theorem at_b32 (e : Fin 800000) (j : Fin 128) : idx_main_v31 (idx_main_v32 (ix2 e j)) = ix1 j :=
  funext fun a => Fin.ext (by match a with | ⟨0, _⟩ => rfl)
theorem at_l35 (e : Fin 800000) (u : Fin 1) (k : Fin 128) : lidx_main_v35 (ix2 e u) k = ix2 e k :=
  funext fun a => Fin.ext (by match a with | ⟨0, _⟩ => rfl | ⟨1, _⟩ => rfl)
theorem at_r35 (e : Fin 800000) (u : Fin 1) (k : Fin 128) : ridx_main_v35 (ix2 e u) k = ix2 k (0 : Fin 1) :=
  funext fun a => Fin.ext (by
    have hu : u.val = 0 := by have := u.isLt; omega
    match a with | ⟨0, _⟩ => rfl | ⟨1, _⟩ => exact hu)
theorem at_b37 (e : Fin 800000) (u : Fin 1) : idx_main_v36 (idx_main_v37 (ix2 e u)) = ix1 (0 : Fin 1) :=
  funext fun a => Fin.ext (by match a with | ⟨0, _⟩ => rfl)

/-! ## The stages -/

/-- The length column, at row e: edge e's length. -/
theorem len_apply (e : Fin 800000) (u : Fin 1) :
    val_main_v15 (F := Ideal) x0 x2 x3 (ix2 e u) = len (drOf x0 x2 x3 e) := by
  rw [val_main_v15_apply, val_main_call0_v2_apply, val_main_call0_v1_apply, val_main_call0_cst_apply]
  show Ideal.sqrt (Ideal.ofBits .f32 0x00000000#32
    + ∑ k : Fin 2, val_main_call0_v0 (F := Ideal) x0 x2 x3 (idx_main_call0_v1 (idx_main_call0_v2 (ix2 e u)) k)) = _
  rw [Ideal.ofBits_zero_f32, zero_add]
  refine congrArg Ideal.sqrt (Finset.sum_congr rfl fun k _ => ?_)
  rw [at_sum, val_main_call0_v0_apply]
  rfl

/-- The unit vectors, at (e, d): coordinate d of edge e's unit vector. -/
theorem unit_apply (e : Fin 800000) (d : Fin 2) :
    val_main_v19 (F := Ideal) x0 x2 x3 (ix2 e d) = unitDir (drOf x0 x2 x3 e) d := by
  rw [val_main_v19_apply, val_main_v18_apply, at_v18, val_main_v17_apply, val_main_v16_apply, val_main_cst_apply, len_apply]
  rfl

/-- The first hidden layer, at (e, j). -/
theorem hidFirst_apply (e : Fin 800000) (j : Fin 128) :
    val_main_v24 (F := Ideal) x0 x2 x3 x5 x6 (ix2 e j) = hidFirst (rowVec x5) (vec x6) (len (drOf x0 x2 x3 e)) j := by
  rw [val_main_v24_apply, val_main_v23_apply, val_main_v20_apply, val_main_v22_apply, val_main_v21_apply, at_b22,
    val_main_call1_v0_apply, val_main_call1_cst_apply, sum_fin_one, at_l20, at_r20, len_apply]
  show max (len (drOf x0 x2 x3 e) * x5 (ix2 (0 : Fin 1) j) + x6 (ix1 j)) (Ideal.ofBits .f32 0x00000000#32) = _
  rw [Ideal.ofBits_zero_f32]
  rfl

/-- The second hidden layer, at (e, j). -/
theorem hidSecond_apply (e : Fin 800000) (j : Fin 128) :
    val_main_v29 (F := Ideal) x0 x2 x3 x5 x6 x7 x8 (ix2 e j)
      = hidNext (mat x7) (vec x8) (hidFirst (rowVec x5) (vec x6) (len (drOf x0 x2 x3 e))) j := by
  rw [val_main_v29_apply, val_main_v28_apply, val_main_v25_apply, val_main_v27_apply, val_main_v26_apply, at_b27,
    val_main_call2_v0_apply, val_main_call2_cst_apply]
  show max ((∑ k : Fin 128, val_main_v24 (F := Ideal) x0 x2 x3 x5 x6 (lidx_main_v25 (ix2 e j) k) * x7 (ridx_main_v25 (ix2 e j) k))
    + x8 (ix1 j)) (Ideal.ofBits .f32 0x00000000#32) = _
  rw [Ideal.ofBits_zero_f32]
  unfold hidNext
  refine congrArg (fun s => max (s + x8 (ix1 j)) 0) (Finset.sum_congr rfl fun k _ => ?_)
  rw [at_l25, at_r25, hidFirst_apply]

/-- The third hidden layer, at (e, j). -/
theorem hidThird_apply (e : Fin 800000) (j : Fin 128) :
    val_main_v34 (F := Ideal) x0 x2 x3 x5 x6 x7 x8 x9 x10 (ix2 e j)
      = hidNext (mat x9) (vec x10) (hidNext (mat x7) (vec x8) (hidFirst (rowVec x5) (vec x6) (len (drOf x0 x2 x3 e)))) j := by
  rw [val_main_v34_apply, val_main_v33_apply, val_main_v30_apply, val_main_v32_apply, val_main_v31_apply, at_b32,
    val_main_call3_v0_apply, val_main_call3_cst_apply]
  show max ((∑ k : Fin 128, val_main_v29 (F := Ideal) x0 x2 x3 x5 x6 x7 x8 (lidx_main_v30 (ix2 e j) k) * x9 (ridx_main_v30 (ix2 e j) k))
    + x10 (ix1 j)) (Ideal.ofBits .f32 0x00000000#32) = _
  rw [Ideal.ofBits_zero_f32]
  unfold hidNext
  refine congrArg (fun s => max (s + x10 (ix1 j)) 0) (Finset.sum_congr rfl fun k _ => ?_)
  rw [at_l30, at_r30, hidSecond_apply]
  rfl

/-- The strength column, at row e. -/
theorem strength_apply (e : Fin 800000) (u : Fin 1) :
    val_main_v38 (F := Ideal) x0 x2 x3 x5 x6 x7 x8 x9 x10 x11 x12 (ix2 e u)
      = strength (colVec x11) (num x12)
          (hidNext (mat x9) (vec x10) (hidNext (mat x7) (vec x8) (hidFirst (rowVec x5) (vec x6) (len (drOf x0 x2 x3 e))))) := by
  rw [val_main_v38_apply, val_main_v35_apply, val_main_v37_apply, val_main_v36_apply, at_b37]
  show (∑ k : Fin 128, val_main_v34 (F := Ideal) x0 x2 x3 x5 x6 x7 x8 x9 x10 (lidx_main_v35 (ix2 e u) k) * x11 (ridx_main_v35 (ix2 e u) k))
    + x12 (ix1 (0 : Fin 1)) = _
  unfold strength
  refine congrArg (fun s => s + x12 (ix1 (0 : Fin 1))) (Finset.sum_congr rfl fun k _ => ?_)
  rw [at_l35, at_r35, hidThird_apply]

/-- THE REFERENCE'S FORCES AT (e, d): coordinate d of edge e's force. -/
theorem force_apply (e : Fin 800000) (d : Fin 2) :
    val_main_v40 (F := Ideal) x0 x2 x3 x5 x6 x7 x8 x9 x10 x11 x12 (ix2 e d)
      = force (rowVec x5) (vec x6) (mat x7) (vec x8) (mat x9) (vec x10) (colVec x11) (num x12) (drOf x0 x2 x3 e) d := by
  rw [val_main_v40_apply, val_main_v39_apply, at_v39, strength_apply, unit_apply]
  rfl

end Cert.ReferenceIdeal.EdgeValue

end
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.LibGatherCols.lean ====
/-
  A gather of whole columns, read at an index.

  Taking columns of a matrix x : [D, N] at an integer column of column numbers idx : [R, 1] is a gather that collapses
  the column axis, keeps the row axis as its one offset axis (slices of one column, D tall) and reads each start index off
  idx's second axis. Its element (d, r) is x at row d and at the column idx[r, 0], read as a signed integer and clamped
  into [0, N - 1], as every start index of a gather is. It is the companion of the gather of whole rows of x : [N, D],
  whose element (r, d) is x at the row idx[r, 0] and column d: a gather of columns of a transposed matrix reads the
  entry a gather of rows of the matrix itself reads.
-/
import Idealize.ShloMosaic.PureOps
import Idealize.ShloMosaic.Lib.ValueIdx

namespace Cert.Lib.GatherCols

open Idealize.ShloMosaic Idealize.ShloMosaic.ValueIdx

variable {α : Type}

/-- The dimension numbers of that gather for an operand [D, N], start indices [R, 1] and a result [D, R]. -/
abbrev colsDims (N R D : Nat) (wf : GatherDims.WF ⟨2, ![D, N]⟩ ⟨2, ![R, 1]⟩ ⟨2, ![D, R]⟩ [0] [1] [] [1] [] 1 ![D, 1]) :
    GatherDims ⟨2, ![D, N]⟩ ⟨2, ![R, 1]⟩ ⟨2, ![D, R]⟩ where
  offsetDims := [0]
  collapsedSliceDims := [1]
  operandBatchingDims := []
  startIndicesBatchingDims := []
  startIndexMap := [1]
  indexVectorDim := 1
  sliceSizes := ![D, 1]
  wf := wf

/-- Where result index (d, r) reads its column number: [r, 0]. -/
abbrev colsIdx {R D : Nat} (y : (⟨2, ![D, R]⟩ : Shape).Idx) : (⟨2, ![R, 1]⟩ : Shape).Idx :=
  fun a => match a with | ⟨0, _⟩ => ⟨(y 1).val, idx2_lt1 y⟩ | ⟨1, _⟩ => ⟨0, Nat.one_pos⟩

/-- THE GATHER READ AT (d, r): the operand at row d and at the column idx[r, 0], read signed and clamped into
    [0, N - 1]. -/
theorem gather_cols_apply {N R D w : Nat} (hN : 0 < N)
    (wf : GatherDims.WF ⟨2, ![D, N]⟩ ⟨2, ![R, 1]⟩ ⟨2, ![D, R]⟩ [0] [1] [] [1] [] 1 ![D, 1])
    (x : (⟨2, ![D, N]⟩ : Shape).Idx → α) (idx : IVec ⟨2, ![R, 1]⟩ w) (y : (⟨2, ![D, R]⟩ : Shape).Idx) :
    Host.gather (colsDims N R D wf) x idx y
      = x (ix2 (⟨(y 0).val, idx2_lt0 y⟩ : Fin D) (⟨min (idx (colsIdx y)).toInt.toNat (N - 1), by omega⟩ : Fin N)) := by
  unfold Host.gather
  congr 1
  funext a
  refine Fin.ext ?_
  show (colsDims N R D wf).start y idx a + (colsDims N R D wf).batchCoord y a + (colsDims N R D wf).offCoord y a = _
  rw [GatherDims.batchCoord_eq_zero _ _ _ List.not_mem_nil, Nat.add_zero]
  -- the column axis: collapsed (no offset), its start the clamped column number
  have col : (colsDims N R D wf).start y idx (1 : Fin 2) + (colsDims N R D wf).offCoord y (1 : Fin 2)
      = min (idx (colsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (1 : Fin 2) ∈ (colsDims N R D wf).startIndexMap from List.mem_singleton.mpr rfl)]
    have hsi : (colsDims N R D wf).siIdx y ⟨List.idxOf (1 : Fin 2) (colsDims N R D wf).startIndexMap,
        List.idxOf_lt_length_iff.2 (List.mem_singleton.mpr rfl)⟩ = colsIdx y := by
      funext b; refine Fin.ext ?_
      match b with
      | ⟨0, _⟩ => rfl
      | ⟨1, _⟩ => rfl
    rw [hsi]
    rfl
  -- the row axis: not in the start index map (start 0), the result's offset axis
  have row : (colsDims N R D wf).start y idx (0 : Fin 2) + (colsDims N R D wf).offCoord y (0 : Fin 2) = (y 0).val := by
    have h0 : (0 : Fin 2) ∉ ([1] : List (Fin 2)) := by decide
    have hk : (0 : Fin 2) ∈ (colsDims N R D wf).sKept := (GatherDims.mem_sKept _ _).mpr ⟨h0, List.not_mem_nil⟩
    unfold GatherDims.start GatherDims.offCoord
    rw [dif_neg h0, dif_pos hk, Nat.zero_add]
    rfl
  match a with
  | ⟨0, _⟩ => exact row
  | ⟨1, _⟩ => exact col

end Cert.Lib.GatherCols
-- ==== Proof.LibGatherTransposed.lean ====
/-
  A gather of columns of a transposed matrix is the gather of rows of the matrix, transposed.

  Taking columns of the transpose of x : [N, D] at column numbers idx : [R, 1] gives a [D, R] array whose entry (d, r)
  is the transpose at row d and column idx[r, 0] (signed, clamped into [0, N - 1]), that is x at row idx[r, 0] and
  column d: entry (r, d) of the rows of x taken at the same numbers. A program that keeps its records along the second
  axis gathers the first way, one that keeps them along the first axis the second way, and they read the same entries.
-/
import proofs.«164643_j65549790871653_2_alg».proof.Proof.LibGatherRows
import proofs.«164643_j65549790871653_2_alg».proof.Proof.LibGatherCols
import Idealize.ShloMosaic.Lib.Pipeline.Value
import Idealize.ShloMosaic.Lib.ValueIdx

namespace Cert.Lib.GatherTransposed

open Idealize.ShloMosaic Idealize.ShloMosaic.ValueIdx Cert.Lib.GatherRows Cert.Lib.GatherCols

variable {α : Type}

/-- Entry (d, r) of the columns of the transpose is entry (r, d) of the rows. -/
theorem gather_cols_transpose {N R D w : Nat} (hN : 0 < N)
    (wfc : GatherDims.WF ⟨2, ![D, N]⟩ ⟨2, ![R, 1]⟩ ⟨2, ![D, R]⟩ [0] [1] [] [1] [] 1 ![D, 1])
    (wfr : GatherDims.WF ⟨2, ![N, D]⟩ ⟨2, ![R, 1]⟩ ⟨2, ![R, D]⟩ [1] [0] [] [0] [] 1 ![1, D])
    (x : (⟨2, ![N, D]⟩ : Shape).Idx → α) (ht : (⟨2, ![N, D]⟩ : Shape).Transposes [1, 0] ⟨2, ![D, N]⟩)
    (idx : IVec ⟨2, ![R, 1]⟩ w) (d : Fin D) (r : Fin R) :
    Host.gather (colsDims N R D wfc) (transpose ⟨2, ![D, N]⟩ [1, 0] x ht) idx (ix2 d r)
      = Host.gather (rowsDims N R D wfr) x idx (ix2 r d) := by
  have hi : colsIdx (ix2 d r) = rowsIdx (ix2 r d) :=
    funext fun a => Fin.ext (by match a with | ⟨0, _⟩ => rfl | ⟨1, _⟩ => rfl)
  rw [gather_cols_apply hN wfc, gather_rows_apply hN wfr]
  refine transpose_apply [1, 0] x ht _ _ (fun b => ?_)
  match b with
  | ⟨0, _⟩ => rfl
  | ⟨1, _⟩ =>
    show min (idx (rowsIdx (ix2 r d))).toInt.toNat (N - 1) = min (idx (colsIdx (ix2 d r))).toInt.toNat (N - 1)
    rw [hi]

end Cert.Lib.GatherTransposed
-- ==== Proof.KernelHost.lean ====
/-
  The host operations around the kernel's region, and the program's result.

  Before the region the program gathers, for every edge, the positions of its two ends out of the transposed position
  array and subtracts them, the displacement array [2, 800000], one edge per column; and it re-lays the weights: the
  first weights and each weight matrix transposed, each bias read as a column. A gather of columns of a transposed
  array reads the entries the reference's gather of rows reads, and a transposed or re-laid weight read at an index is
  the weight itself at the mirrored index, so the region's forces, edge by edge, are the reference's forces, the edge's
  coordinates the other way round.

  After the region the program transposes the forces to one edge per row, adds each edge's force into its end node's
  row of a zero array, and subtracts the damping term. The reference applies the same three operations to its own
  forces array; the two forces arrays being equal, so are the results, and the additions are never opened.
-/
import proofs.«164643_j65549790871653_2_alg».proof.Proof.Gen.KernelIdeal.Frame
import proofs.«164643_j65549790871653_2_alg».proof.Proof.Gen.ReferenceIdeal.Read
import proofs.«164643_j65549790871653_2_alg».proof.Proof.KernelRegion
import proofs.«164643_j65549790871653_2_alg».proof.Proof.RefEdge
import proofs.«164643_j65549790871653_2_alg».proof.Proof.LibGatherTransposed
import proofs.«164643_j65549790871653_2_alg».proof.Proof.LibColBroadcast
import Idealize.ShloMosaic.Lib.StableHlo.Run
import Idealize.ShloMosaic.Lib.Pipeline.Value
import Idealize.ShloMosaic.Lib.ValueIdx

set_option maxRecDepth 65536

noncomputable section

namespace Cert.KernelIdeal.HostValue

open Idealize.ShloMosaic Idealize.ShloMosaic.ValueIdx Idealize.ShloMosaic.TcCoe Idealize.SL.Sem Idealize.ShloMosaic.StableHlo
open Cert.KernelIdeal Cert.KernelIdeal.Gen Cert.EdgeForce Cert.KernelIdeal.BodyValue Cert.KernelIdeal.RegionValue

variable (m : (ℓ : Loc nD τ sig) → Buf (Elt Ideal) ℓ)

/-! ## The arrays the region finds -/

/-- The column of node numbers a gather reads, of an array of node numbers: a negative number wrapped once by the
    number of nodes, then laid as a column. -/
def nodeCol (a : (⟨S800000, .i32⟩ : BufTy).Contents (Elt Ideal)) : (⟨S800000x1, .i32⟩ : BufTy).Contents (Elt Ideal) :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 100000#32))) a)

/-- The displacement array the region finds: the end positions minus the start positions, gathered out of the
    transposed position array. -/
theorem dr_eq (c : Dev nD) : (V m c main_v15 : S2x800000.Idx → Elt Ideal .f32)
    = (subf (Host.gather gather_S2x100000_S800000x1_S2x800000_0_1_n_n_1_1_21
        (transpose S2x100000 [1, 0] (m ((c : Thread nD τ).loc main_arg0)) transposes_S100000x2_S2x100000_1_0) (nodeCol (m ((c : Thread nD τ).loc main_arg3))))
      (Host.gather gather_S2x100000_S800000x1_S2x800000_0_1_n_n_1_1_21
        (transpose S2x100000 [1, 0] (m ((c : Thread nD τ).loc main_arg0)) transposes_S100000x2_S2x100000_1_0) (nodeCol (m ((c : Thread nD τ).loc main_arg2)))) : FVec Ideal S2x800000 .f32) := by
  show StableHlo.after hostOps0 (fun b => m (c, b)) (Proc.devRef .tc main_v15) = _
  after_results_simp <;> rfl

theorem w0_eq (c : Dev nD) : (V m c main_v16 : S128x1.Idx → Elt Ideal .f32)
    = transpose S128x1 [1, 0] (m ((c : Thread nD τ).loc main_arg5)) transposes_S1x128_S128x1_1_0 := by
  show StableHlo.after hostOps0 (fun b => m (c, b)) (Proc.devRef .tc main_v16) = _
  after_results <;> rfl
theorem b0_eq (c : Dev nD) : (V m c main_v17 : S128x1.Idx → Elt Ideal .f32)
    = shapeCast S128x1 (m ((c : Thread nD τ).loc main_arg6)) shapeCasts_S128_S128x1 := by
  show StableHlo.after hostOps0 (fun b => m (c, b)) (Proc.devRef .tc main_v17) = _
  after_results <;> rfl
theorem w1_eq (c : Dev nD) : (V m c main_v18 : S128x128.Idx → Elt Ideal .f32)
    = transpose S128x128 [1, 0] (m ((c : Thread nD τ).loc main_arg7)) transposes_S128x128_S128x128_1_0 := by
  show StableHlo.after hostOps0 (fun b => m (c, b)) (Proc.devRef .tc main_v18) = _
  after_results <;> rfl
theorem b1_eq (c : Dev nD) : (V m c main_v19 : S128x1.Idx → Elt Ideal .f32)
    = shapeCast S128x1 (m ((c : Thread nD τ).loc main_arg8)) shapeCasts_S128_S128x1 := by
  show StableHlo.after hostOps0 (fun b => m (c, b)) (Proc.devRef .tc main_v19) = _
  after_results <;> rfl
theorem w2_eq (c : Dev nD) : (V m c main_v20 : S128x128.Idx → Elt Ideal .f32)
    = transpose S128x128 [1, 0] (m ((c : Thread nD τ).loc main_arg9)) transposes_S128x128_S128x128_1_0 := by
  show StableHlo.after hostOps0 (fun b => m (c, b)) (Proc.devRef .tc main_v20) = _
  after_results <;> rfl
theorem b2_eq (c : Dev nD) : (V m c main_v21 : S128x1.Idx → Elt Ideal .f32)
    = shapeCast S128x1 (m ((c : Thread nD τ).loc main_arg10)) shapeCasts_S128_S128x1 := by
  show StableHlo.after hostOps0 (fun b => m (c, b)) (Proc.devRef .tc main_v21) = _
  after_results <;> rfl
theorem b3_eq (c : Dev nD) : (V m c main_v22 : S1x1.Idx → Elt Ideal .f32)
    = shapeCast S1x1 (m ((c : Thread nD τ).loc main_arg12)) shapeCasts_S1_S1x1 := by
  show StableHlo.after hostOps0 (fun b => m (c, b)) (Proc.devRef .tc main_v22) = _
  after_results <;> rfl

/-! ## Read at an index -/

/-- The displacement array at (d, e) is the reference's displacement of edge e, coordinate d: the columns gathered
    out of the transposed positions are the rows gathered out of the positions, at the same wrapped node numbers. -/
theorem dr_at (c : Dev nD) (d : Fin 2) (e : Fin 800000) :
    V m c main_v15 (ix2 d e) = Cert.ReferenceIdeal.Read.val_main_v14 (F := Ideal) (m ((c : Thread nD τ).loc main_arg0)) (m ((c : Thread nD τ).loc main_arg2)) (m ((c : Thread nD τ).loc main_arg3)) (ix2 e d) := by
  rw [dr_eq, subf_apply, Cert.ReferenceIdeal.Read.val_main_v14_apply]
  show _ - _ = _ - _
  refine congrArg₂ (· - ·) ?_ ?_
  · exact Cert.Lib.GatherTransposed.gather_cols_transpose (by decide)
      Cert.KernelIdeal.Facts₀.gather_S2x100000_S800000x1_S2x800000_0_1_n_n_1_1_21_wf
      Cert.ReferenceIdeal.Facts₀.gather_S100000x2_S800000x1_S800000x2_1_0_n_n_0_1_12_wf
      (m ((c : Thread nD τ).loc main_arg0)) transposes_S100000x2_S2x100000_1_0 (nodeCol (m ((c : Thread nD τ).loc main_arg3))) d e
  · exact Cert.Lib.GatherTransposed.gather_cols_transpose (by decide)
      Cert.KernelIdeal.Facts₀.gather_S2x100000_S800000x1_S2x800000_0_1_n_n_1_1_21_wf
      Cert.ReferenceIdeal.Facts₀.gather_S100000x2_S800000x1_S800000x2_1_0_n_n_0_1_12_wf
      (m ((c : Thread nD τ).loc main_arg0)) transposes_S100000x2_S2x100000_1_0 (nodeCol (m ((c : Thread nD τ).loc main_arg2))) d e

/-- The first weights' column is the first weights' row. -/
theorem w0_at (c : Dev nD) (j : Fin 128) : vecOf (V m c main_v16) j = (m ((c : Thread nD τ).loc main_arg5)) (ix2 (0 : Fin 1) j) := by
  show V m c main_v16 (ix2 j (0 : Fin 1)) = _
  rw [w0_eq]
  exact transpose_apply [1, 0] _ _ _ _ (fun b => by match b with | ⟨0, _⟩ => rfl | ⟨1, _⟩ => rfl)
/-- The first bias column is the first bias. -/
theorem b0_at (c : Dev nD) (j : Fin 128) : vecOf (V m c main_v17) j = (m ((c : Thread nD τ).loc main_arg6)) (ix1 j) := by
  show V m c main_v17 (ix2 j (0 : Fin 1)) = _
  rw [b0_eq]
  exact Cert.ColBroadcast.shapeCast_col_apply _ _ j 0
/-- The transposed second weights, read back, are the second weights. -/
theorem w1_at (c : Dev nD) (k j : Fin 128) : matOfT (V m c main_v18) k j = (m ((c : Thread nD τ).loc main_arg7)) (ix2 k j) := by
  show V m c main_v18 (ix2 j k) = _
  rw [w1_eq]
  exact transpose_apply [1, 0] _ _ _ _ (fun b => by match b with | ⟨0, _⟩ => rfl | ⟨1, _⟩ => rfl)
theorem b1_at (c : Dev nD) (j : Fin 128) : vecOf (V m c main_v19) j = (m ((c : Thread nD τ).loc main_arg8)) (ix1 j) := by
  show V m c main_v19 (ix2 j (0 : Fin 1)) = _
  rw [b1_eq]
  exact Cert.ColBroadcast.shapeCast_col_apply _ _ j 0
theorem w2_at (c : Dev nD) (k j : Fin 128) : matOfT (V m c main_v20) k j = (m ((c : Thread nD τ).loc main_arg9)) (ix2 k j) := by
  show V m c main_v20 (ix2 j k) = _
  rw [w2_eq]
  exact transpose_apply [1, 0] _ _ _ _ (fun b => by match b with | ⟨0, _⟩ => rfl | ⟨1, _⟩ => rfl)
theorem b2_at (c : Dev nD) (j : Fin 128) : vecOf (V m c main_v21) j = (m ((c : Thread nD τ).loc main_arg10)) (ix1 j) := by
  show V m c main_v21 (ix2 j (0 : Fin 1)) = _
  rw [b2_eq]
  exact Cert.ColBroadcast.shapeCast_col_apply _ _ j 0
/-- The output weights are passed as they are. -/
theorem w3_at (c : Dev nD) (j : Fin 128) : vecOf (V m c main_arg11) j = (m ((c : Thread nD τ).loc main_arg11)) (ix2 j (0 : Fin 1)) :=
  congrFun (V_main_arg11 m c) (ix2 j (0 : Fin 1))
/-- The output bias, read as a [1, 1] array, is the output bias. -/
theorem b3_at (c : Dev nD) : numOf (V m c main_v22) = (m ((c : Thread nD τ).loc main_arg12)) (ix1 (0 : Fin 1)) := by
  show V m c main_v22 (ix2 (0 : Fin 1) (0 : Fin 1)) = _
  rw [b3_eq]
  exact Cert.ColBroadcast.shapeCast_col_apply _ _ 0 0

/-- THE REGION'S FORCES at (d, e) are the reference's forces at (e, d). -/
theorem forces_at (c : Dev nD) (d : Fin 2) (e : Fin 800000) :
    forcesAt m c (ix2 d e) = Cert.ReferenceIdeal.Read.val_main_v40 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 e d) := by
  rw [Cert.ReferenceIdeal.EdgeValue.force_apply]
  show force (vecOf (V m c main_v16)) (vecOf (V m c main_v17)) (matOfT (V m c main_v18)) (vecOf (V m c main_v19))
    (matOfT (V m c main_v20)) (vecOf (V m c main_v21)) (vecOf (V m c main_arg11)) (numOf (V m c main_v22))
    (fun d' => V m c main_v15 (ix2 d' e)) d = _
  rw [show vecOf (V m c main_v16) = Cert.ReferenceIdeal.EdgeValue.rowVec (m ((c : Thread nD τ).loc main_arg5)) from funext (w0_at m c),
    show vecOf (V m c main_v17) = Cert.ReferenceIdeal.EdgeValue.vec (m ((c : Thread nD τ).loc main_arg6)) from funext (b0_at m c),
    show matOfT (V m c main_v18) = Cert.ReferenceIdeal.EdgeValue.mat (m ((c : Thread nD τ).loc main_arg7)) from funext fun k => funext fun j => w1_at m c k j,
    show vecOf (V m c main_v19) = Cert.ReferenceIdeal.EdgeValue.vec (m ((c : Thread nD τ).loc main_arg8)) from funext (b1_at m c),
    show matOfT (V m c main_v20) = Cert.ReferenceIdeal.EdgeValue.mat (m ((c : Thread nD τ).loc main_arg9)) from funext fun k => funext fun j => w2_at m c k j,
    show vecOf (V m c main_v21) = Cert.ReferenceIdeal.EdgeValue.vec (m ((c : Thread nD τ).loc main_arg10)) from funext (b2_at m c),
    show vecOf (V m c main_arg11) = Cert.ReferenceIdeal.EdgeValue.colVec (m ((c : Thread nD τ).loc main_arg11)) from funext (w3_at m c),
    show numOf (V m c main_v22) = Cert.ReferenceIdeal.EdgeValue.num (m ((c : Thread nD τ).loc main_arg12)) from b3_at m c,
    show (fun d' => V m c main_v15 (ix2 d' e)) = Cert.ReferenceIdeal.EdgeValue.drOf (m ((c : Thread nD τ).loc main_arg0)) (m ((c : Thread nD τ).loc main_arg2)) (m ((c : Thread nD τ).loc main_arg3)) e from funext fun d' => dr_at m c d' e]

/-! ## The result -/

/-- THE PROGRAM'S RESULT is the reference's result of the same arguments. -/
theorem result_eq (c : Dev nD) :
    Pipeline.afterTail₀ cfgs (dats m) 0 (V0 m) [hostOps1] c main_v30
      = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  show StableHlo.after hostOps1 _ (Proc.devRef .tc main_v30) = _
  after_results
  have h23 : Pipeline.withArrays (cfgs 0).spec c (V0 m c) (fun w => (dats m 0 c).arrAt w (cfgs 0).N) (Proc.devRef .tc main_v23)
      = forcesAt m c :=
    (Pipeline.withArrays_arr spec0 launch0.win.arr_inj c (V0 m c) _ 9).trans (region_out m c)
  have h3 : Pipeline.withArrays (cfgs 0).spec c (V0 m c) (fun w => (dats m 0 c).arrAt w (cfgs 0).N) (Proc.devRef .tc main_arg3)
      = (m ((c : Thread nD τ).loc main_arg3)) :=
    (Pipeline.withArrays_of_ne _ c (V0 m c) _ main_arg3 (by exact (by decide : ∀ w, Pipeline.arrRef spec0 w ≠ main_arg3))).trans
      (V_main_arg3 m c)
  have h4 : Pipeline.withArrays (cfgs 0).spec c (V0 m c) (fun w => (dats m 0 c).arrAt w (cfgs 0).N) (Proc.devRef .tc main_arg4)
      = (m ((c : Thread nD τ).loc main_arg4)) :=
    (Pipeline.withArrays_of_ne _ c (V0 m c) _ main_arg4 (by exact (by decide : ∀ w, Pipeline.arrRef spec0 w ≠ main_arg4))).trans
      (V_main_arg4 m c)
  have h1 : Pipeline.withArrays (cfgs 0).spec c (V0 m c) (fun w => (dats m 0 c).arrAt w (cfgs 0).N) (Proc.devRef .tc main_arg1)
      = (m ((c : Thread nD τ).loc main_arg1)) :=
    (Pipeline.withArrays_of_ne _ c (V0 m c) _ main_arg1 (by exact (by decide : ∀ w, Pipeline.arrRef spec0 w ≠ main_arg1))).trans
      (V_main_arg1 m c)
  -- the forces, one edge per row, are the reference's forces array
  have ht : transpose S800000x2 [1, 0] (forcesAt m c) transposes_S2x800000_S800000x2_1_0
      = Cert.ReferenceIdeal.Read.val_main_v40 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
    funext i
    obtain ⟨e, d, rfl⟩ : ∃ (e : Fin 800000) (d : Fin 2), i = ix2 e d := ⟨i 0, i 1, eq_ix2 i⟩
    refine (transpose_apply [1, 0] (forcesAt m c) transposes_S2x800000_S800000x2_1_0 (ix2 e d) (ix2 d e)
      (fun b => by match b with | ⟨0, _⟩ => rfl | ⟨1, _⟩ => rfl)).trans ?_
    exact forces_at m c d e
  rw [h23, h3, h4, h1, ht]
  rfl

end Cert.KernelIdeal.HostValue

end
-- ==== Proof.KernelRun.lean ====
/-
  The kernel program's run, with its result named.

  Every weakly fair execution of the program terminates; its argument arrays end as they were launched; and its
  result array ends at the reference's function of the argument arrays: the forces of all edges, added node by node,
  minus the damping term. The run itself is the frame run around the region; the result is what the operations after
  the region leave, read from the output array the region leaves.
-/
import proofs.«164643_j65549790871653_2_alg».proof.Proof.Gen.KernelIdeal.Frame
import proofs.«164643_j65549790871653_2_alg».proof.Proof.KernelHost

noncomputable section

namespace Cert.KernelIdeal.RunValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- THE RUN: the result array at the reference's function of the arguments, the arguments unchanged. -/
theorem run : θ_run defs (onTc (τ := τ) (main (F := Ideal))) ⟨m, fun _ => 0, ρ⟩ (fun r => ∀ c : Dev nD,
      r.2.mem ((c.tc : Thread nD τ).loc main_v30)
        = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      ((h c).2 main_v30 (Pipeline.mem_restRefs_of main_v30 (by decide) (by decide))).trans (Cert.KernelIdeal.HostValue.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).1 7).trans ((((dats m) 0 c).arrAt_in 7 rfl _).trans ((A_eq m c 7).trans (V_main_arg11 m c))),
      ((h c).2 main_arg12 (Pipeline.mem_restRefs_of main_arg12 (by decide) (by decide))).trans (W_main_arg12 m (dats m) c)⟩) (run_main m ρ)

end Cert.KernelIdeal.RunValue

end
-- ==== Proof.lean ====
/-
  A message-passing step on a graph of 100000 nodes and 800000 edges: each edge's force, a small network's output on the
  edge's length times the edge's unit vector, is added into its end node, and a damping term is subtracted. One program
  computes the edges' forces in a kernel that keeps the edges along the second axis of its arrays, 32000 at a grid
  point, with the weights transposed; the other computes them with the edges along the first axis. This file proves
  that, read over the extended reals, the two programs run and end with the same result.

  The three frames are the generated frame runs (the reference's its generated run with the result dropped). The
  kernel's idealization rewrote nothing, so there is nothing to preserve. For the results: the kernel's stored block is,
  column by column, the edge's force (Proof/KernelBody.lean); the blocks tile the output array (Proof/KernelRegion.lean);
  the arrays the region finds are the arguments re-laid, and a gather of columns of the transposed positions reads
  what a gather of rows of the positions reads (Proof/KernelHost.lean, Proof/LibGatherTransposed.lean); the reference's
  rows are the same forces (Proof/RefEdge.lean); and both programs apply the same last three operations to equal
  forces arrays. The two arrangements differ by the order of each product's factors and by the layout of sums, so no
  number needs to be finite and the precondition is not used.
-/
import proofs.«164643_j65549790871653_2_alg».proof.Defs
import proofs.«164643_j65549790871653_2_alg».proof.Proof.Gen.Kernel
import proofs.«164643_j65549790871653_2_alg».proof.Proof.Gen.Kernel.Skeleton
import proofs.«164643_j65549790871653_2_alg».proof.Proof.Gen.Kernel.Launch
import proofs.«164643_j65549790871653_2_alg».proof.Proof.Gen.Kernel.Points
import proofs.«164643_j65549790871653_2_alg».proof.Proof.Gen.Kernel.Frame
import proofs.«164643_j65549790871653_2_alg».proof.Proof.Gen.KernelIdeal
import proofs.«164643_j65549790871653_2_alg».proof.Proof.Gen.KernelIdeal.Skeleton
import proofs.«164643_j65549790871653_2_alg».proof.Proof.Gen.KernelIdeal.Launch
import proofs.«164643_j65549790871653_2_alg».proof.Proof.Gen.KernelIdeal.Points
import proofs.«164643_j65549790871653_2_alg».proof.Proof.Gen.KernelIdeal.Frame
import proofs.«164643_j65549790871653_2_alg».proof.Proof.Gen.ReferenceIdeal
import proofs.«164643_j65549790871653_2_alg».proof.Proof.Gen.ReferenceIdeal.Run
import proofs.«164643_j65549790871653_2_alg».proof.Proof.Gen.ReferenceIdeal.Read
import proofs.«164643_j65549790871653_2_alg».proof.Proof.Gen.Pre_finite_inputs
import proofs.«164643_j65549790871653_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's function of the arguments in their result arrays; the arguments agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v46_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
